-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S512x10000 : Shape := ⟨2, ![512, 10000]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S512x10000, .f32⟩
  | .local _ .vmem, ⟨3, _⟩ => ⟨S512x10000, .f32⟩
  | .local _ .vmem, ⟨4, _⟩ => ⟨S512x128, .f32⟩
  | .local _ .vmem, ⟨5, _⟩ => ⟨S512x128, .f32⟩
  | .local _ .vmem, ⟨6, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S512x10000_S512x10000_0_0 : ∀ a, (![0, 0] : Fin 2 → Nat) a + S512x10000.size a ≤ S512x10000.size a
  h_S512x10000 : 0 < S512x10000.numel
  inb_S512x128_S512x128_0_0 : ∀ a, (![0, 0] : Fin 2 → Nat) a + S512x128.size a ≤ S512x128.size a
  h_S512x128 : 0 < S512x128.numel
  dot_S10000x128_S128x128_S10000x128_1_0_0_1_n_n_wf : DotDims.WF S10000x128 S128x128 S10000x128 [1] [0] [0] [1] [] []
  dot_S512x10000_S10000x128_S512x128_1_0_0_1_n_n_wf : DotDims.WF S512x10000 S10000x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x10000.size a < S10000x10000.size a
  hwx0_2 : ∀ i : grid0.Coords, EltTy.bits .f32 = 32 ∨ (Rect.unit (s := S10000x10000) (fun a => cc0_transform_2 i a * S512x10000.size a) (fun a => (Pipeline.Clip.of (cc0_transform_2 i a) (S512x10000.size a) (S10000x10000.size a)).extent (S512x10000.size a)) fun a => Pipeline.Clip.inb (Pipeline.Clip.ok_of (hstart0_2 i a))).WholeWords (EltTy.packing .f32)
  hwxs0_2 : ∀ i : grid0.Coords, EltTy.bits .f32 = 32 ∨ (Rect.unit (s := S512x10000) (fun _ => 0) (fun a => (Pipeline.Clip.of (cc0_transform_2 i a) (S512x10000.size a) (S10000x10000.size a)).extent (S512x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x128.size a < S10000x128.size a
  hwx0_3 : ∀ i : grid0.Coords, EltTy.bits .f32 = 32 ∨ (Rect.unit (s := S10000x128) (fun a => cc0_transform_3 i a * S512x128.size a) (fun a => (Pipeline.Clip.of (cc0_transform_3 i a) (S512x128.size a) (S10000x128.size a)).extent (S512x128.size a)) fun a => Pipeline.Clip.inb (Pipeline.Clip.ok_of (hstart0_3 i a))).WholeWords (EltTy.packing .f32)
  hwxs0_3 : ∀ i : grid0.Coords, EltTy.bits .f32 = 32 ∨ (Rect.unit (s := S512x128) (fun _ => 0) (fun a => (Pipeline.Clip.of (cc0_transform_3 i a) (S512x128.size a) (S10000x128.size a)).extent (S512x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S512x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S512x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.RunsK.lean ====
/-
  The kernel body of the graph-convolution layer, run once for each of its two control cases.

  The body first asks whether it is at the first grid point. If so it loads the whole feature matrix and the whole
  weight matrix, multiplies them, and stores the product (the "support" matrix, 10000 x 128) into a scratch buffer
  that the later points find unchanged. At every point it then loads its 512 x 10000 row block of the adjacency
  matrix and the support matrix from the scratch buffer, multiplies them, and stores the 512 x 128 product into the
  output block. Each store covers its buffer whole, so what a buffer holds afterwards is the stored value alone.
-/
import proofs.«123786_g16252156248657_cont_week2b_908_7_alg».proof.Proof.Gen.Kernel.Skeleton
import proofs.«123786_g16252156248657_cont_week2b_908_7_alg».proof.Proof.Gen.Kernel.Launch
import proofs.«123786_g16252156248657_cont_week2b_908_7_alg».proof.Proof.Gen.Kernel.Points
import proofs.«123786_g16252156248657_cont_week2b_908_7_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, as a statement about the grid coordinate: "this is the first point". -/
abbrev atFirst (i : grid0.Coords) : Prop :=
  (Scalar.cmpi .ne (Scalar.extui (Scalar.cmpi .eq (BitVec.ofNat 32 (i 0).val) 0#32)) 0#32) = 1#1

/-- Over the twenty points of the grid the condition holds exactly at point 0. -/
theorem atFirst_iff : ∀ t : Fin cfg0.N, atFirst (grid0.coords t) ↔ t.val = 0 :=
  (by decide +kernel : ∀ t : Fin grid0.N, atFirst (grid0.coords t) ↔ t.val = 0)

set_option maxHeartbeats 1000000 in
/-- The body at the FIRST point, on any whole buffers: the feature, weight and adjacency buffers are read and
    handed back as they were; the output buffer and the scratch buffer, found at any contents, are each left with
    one whole-buffer store written over them (the two lists of stores are what the run finds). -/
noncomputable def runFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S512x10000 .f32) (harg3 : arg3.IsWhole) (arg4 : Memref sig .tc .vmem S512x128 .f32) (harg4 : arg4.IsWhole)
    (arg5 : Memref sig .tc .vmem S10000x128 .bf16) (harg5 : arg5.IsWhole) (hc : atFirst i)
    (x1 : Vec F S10000x128 .f32) (x2 : Vec F S128x128 .f32) (x3 : Vec F S512x10000 .f32) :
    Σ' (L4 : List (View.Piece (Elt F) S512x128 .f32)), { L5 : List (View.Piece (Elt F) S10000x128 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__gcn_kernel i arg1 harg1 arg2 harg2 arg3 harg3 arg4 harg4 arg5 harg5) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    · iexists _; iexact H5

set_option maxHeartbeats 1000000 in
/-- The body at a LATER point, on any whole buffers: the scratch buffer is found holding `xs` and handed back
    holding it; the output buffer is left with one whole-buffer store written over it. -/
noncomputable def runLater (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S512x10000 .f32) (harg3 : arg3.IsWhole) (arg4 : Memref sig .tc .vmem S512x128 .f32) (harg4 : arg4.IsWhole)
    (arg5 : Memref sig .tc .vmem S10000x128 .bf16) (harg5 : arg5.IsWhole) (hc : ¬atFirst i)
    (x1 : Vec F S10000x128 .f32) (x2 : Vec F S128x128 .f32) (x3 : Vec F S512x10000 .f32) (xs : Vec F S10000x128 .bf16) :
    { L4 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xs
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xs) -∗ K ⟨⟩))
          ⊢ wp frame (wpE (defs₀ (F := F)) Variants.none c none) E (cc0__gcn_kernel i arg1 harg1 arg2 harg2 arg3 harg3 arg4 harg4 arg5 harg5) K } := by
  refine ⟨?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%d4, %f4, -, H4⟩, ⟨%f5, %hf5, H5⟩, Hk⟩
    obtain rfl := harg1.eq_unread hf1; obtain rfl := harg2.eq_unread hf2; obtain rfl := harg3.eq_unread hf3
    obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    · iexists _; isplitr; · ipureintro; exact harg5.read_unread _
      iexact H5

end Cert.Kernel.Body

end
-- ==== Proof.PiecesK.lean ====
/-
  What the body's stores leave, read back. Every store of the body writes its buffer whole (offset zero, the
  buffer's own extents), and every load reads its buffer whole, so after the body a stored buffer reads as the stored
  value alone, computed from what the loaded buffers held: the support matrix is the product of the feature and weight
  buffers' contents, and the output block is the product of the adjacency buffer's contents with the support matrix
  (the one just stored at the first point, the one found in the scratch buffer at a later point).
-/
import proofs.«123786_g16252156248657_cont_week2b_908_7_alg».proof.Proof.RunsK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body are zero on both axes. -/
theorem offs_zero : (![0, 0] : Fin 2 → Nat) = fun _ => 0 := funext fun a => by fin_cases a <;> rfl

/-- After a later point the output buffer reads the product of the adjacency buffer's contents and the scratch's. -/
theorem outLater_eq (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S512x10000 .f32) (harg3 : arg3.IsWhole) (arg4 : Memref sig .tc .vmem S512x128 .f32) (harg4 : arg4.IsWhole)
    (arg5 : Memref sig .tc .vmem S10000x128 .bf16) (harg5 : arg5.IsWhole) (hc : ¬atFirst i)
    (x1 : Vec F S10000x128 .f32) (x2 : Vec F S128x128 .f32) (x3 : Vec F S512x10000 .f32) (xs : Vec F S10000x128 .bf16)
    (f : arg4.view.ty.Contents (Elt F)) :
    arg4.view.read (Elt F) (arg4.view.writes (Elt F) f (runLater (F := F) c i arg1 harg1 arg2 harg2 arg3 harg3 arg4 harg4 arg5 harg5 hc x1 x2 x3 xs).1) = k0_pay2 x3 xs := by
  unfold runLater; dsimp only
  rw [View.read_writes_eq_canon _ _ _ (fun y => ⟨_, List.mem_singleton_self _, View.mem_set_unit_zero offs_zero inb_S512x128_S512x128_0_0 y⟩),
    View.canon_unit_zero offs_zero]
  simp only [View.readAt_eq_ld, harg3.read_unread, harg5.read_unread, View.ld_unit_zero (S := S512x10000) offs_zero,
    View.ld_unit_zero (S := S10000x128) offs_zero]

/-- After the first point the scratch buffer reads the product of the feature and weight buffers' contents. -/
theorem scratchFirst_eq (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S512x10000 .f32) (harg3 : arg3.IsWhole) (arg4 : Memref sig .tc .vmem S512x128 .f32) (harg4 : arg4.IsWhole)
    (arg5 : Memref sig .tc .vmem S10000x128 .bf16) (harg5 : arg5.IsWhole) (hc : atFirst i)
    (x1 : Vec F S10000x128 .f32) (x2 : Vec F S128x128 .f32) (x3 : Vec F S512x10000 .f32)
    (f : arg5.view.ty.Contents (Elt F)) :
    arg5.view.read (Elt F) (arg5.view.writes (Elt F) f (runFirst (F := F) c i arg1 harg1 arg2 harg2 arg3 harg3 arg4 harg4 arg5 harg5 hc x1 x2 x3).2.1) = k0_pay1 x1 x2 := by
  unfold runFirst; dsimp only; sl_unfold_words
  rw [View.read_writes_eq_canon _ _ _ (fun y => ⟨_, List.mem_singleton_self _, View.mem_set_unit_zero offs_zero inb_S10000x128_S10000x128_0_0 y⟩),
    View.canon_unit_zero offs_zero]
  simp only [View.readAt_eq_ld, harg1.read_unread, harg2.read_unread, View.ld_unit_zero (S := S10000x128) offs_zero,
    View.ld_unit_zero (S := S128x128) offs_zero]

/-- After the first point the output buffer reads the product of the adjacency buffer's contents with that
    support matrix: the load of the scratch buffer after the store reads what was stored. -/
theorem outFirst_eq (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S512x10000 .f32) (harg3 : arg3.IsWhole) (arg4 : Memref sig .tc .vmem S512x128 .f32) (harg4 : arg4.IsWhole)
    (arg5 : Memref sig .tc .vmem S10000x128 .bf16) (harg5 : arg5.IsWhole) (hc : atFirst i)
    (x1 : Vec F S10000x128 .f32) (x2 : Vec F S128x128 .f32) (x3 : Vec F S512x10000 .f32)
    (f : arg4.view.ty.Contents (Elt F)) :
    arg4.view.read (Elt F) (arg4.view.writes (Elt F) f (runFirst (F := F) c i arg1 harg1 arg2 harg2 arg3 harg3 arg4 harg4 arg5 harg5 hc x1 x2 x3).1) = k0_pay2 x3 (k0_pay1 x1 x2) := by
  unfold runFirst; dsimp only; sl_unfold_words
  rw [View.read_writes_eq_canon _ _ _ (fun y => ⟨_, List.mem_singleton_self _, View.mem_set_unit_zero offs_zero inb_S512x128_S512x128_0_0 y⟩),
    View.canon_unit_zero offs_zero]
  simp only [View.readAt_eq_ld, harg1.read_unread, harg2.read_unread, harg3.read_unread,
    View.ld_unit_zero (S := S10000x128) offs_zero, View.ld_unit_zero (S := S512x10000) offs_zero,
    View.ld_unit_zero (S := S128x128) offs_zero, View.readCov_unit_zero (S := S10000x128) arg5.view offs_zero]

end Cert.Kernel.Body

end
-- ==== Proof.DataK.lean ====
/-
  The pipeline's proof data and the body's obligation, with the output's contents named.

  The grid has twenty points; point t handles rows 512 t .. 512 t + 511 of the adjacency matrix and of the output
  (the last block reaches past row 9999, and only its 272 rows inside the arrays are moved in or out). The feature and
  weight windows are the whole arrays at every point. The scratch buffer holds anything before the first point and
  the support matrix (features times weights) from then on: this is the invariant carried from point to point.
  What the output's staging buffer holds after the body is not named here: the claim proved from this data says
  nothing of the output's contents, and the output window is handed to the body and taken back at any contents.
-/
import proofs.«123786_g16252156248657_cont_week2b_908_7_alg».proof.Proof.PiecesK
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The feature and weight arrays as the region finds them, and the scratch buffer as a memref. -/
abbrev feat (c : Dev nD) : Vec F S10000x128 .f32 := V m c main_arg0
abbrev wgt (c : Dev nD) : Vec F S128x128 .f32 := V m c main_arg2
abbrev scM : Memref sig .tc .vmem S10000x128 .bf16 := Memref.whole cc0_scratch0

/-- The support matrix: the body's first product, of the whole feature and weight arrays. -/
def supp (c : Dev nD) : Vec F S10000x128 .bf16 := k0_pay1 (feat m c) (wgt m c)

/-- The feature and weight windows' blocks sit at offset zero at every point. -/
theorem index0_zero : ∀ t : Fin cfg0.N, ∀ a : Fin 2, win0_0.index t a = 0 :=
  (by decide +kernel : ∀ t : Fin grid0.N, ∀ a : Fin 2, win0_0.index t a = 0)
theorem index1_zero : ∀ t : Fin cfg0.N, ∀ a : Fin 2, win0_1.index t a = 0 :=
  (by decide +kernel : ∀ t : Fin grid0.N, ∀ a : Fin 2, win0_1.index t a = 0)

/-- So the feature window's block is the whole feature array at every point, -/
theorem iblk0_eq (c : Dev nD) (t : Fin cfg0.N) : iblk m c 0 t = feat m c := by
  funext y
  unfold iblk
  rw [View.read_apply]
  show V m c main_arg0 (((cfg0.win 0).blk t).view.emb y) = V m c main_arg0 y
  refine congrArg (V m c main_arg0) (funext fun a => Fin.ext ?_)
  show win0_0.index t a * win0_0.size a + 1 * (y a).val = (y a).val
  rw [index0_zero t a]; omega

/-- and the weight window's the whole weight array. -/
theorem iblk1_eq (c : Dev nD) (t : Fin cfg0.N) : iblk m c 1 t = wgt m c := by
  funext y
  unfold iblk
  rw [View.read_apply]
  show V m c main_arg2 (((cfg0.win 1).blk t).view.emb y) = V m c main_arg2 y
  refine congrArg (V m c main_arg2) (funext fun a => Fin.ext ?_)
  show win0_1.index t a * win0_1.size a + 1 * (y a).val = (y a).val
  rw [index1_zero t a]; omega

/-- The class's region invariant, the scratch buffer written as an owned memref at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`: before the first point the scratch holds anything; afterwards the support
    matrix. -/
def PhiS (c : Dev nD) : ℕ → sProp 𝕄
  | 0 => Pipeline.ΦA spec0 c
  | _ + 1 => iprop(iprop(owns (c : Thread nD τ) scM fullShare (supp m c)) ∗ (∃ r, prngReg c r))

theorem PhiS_pos (c : Dev nD) (n : ℕ) (hn : n ≠ 0) :
    PhiS m c n = iprop(iprop(owns (c : Thread nD τ) scM fullShare (supp m c)) ∗ (∃ r, prngReg c r)) := by
  cases n with
  | zero => exact absurd rfl hn
  | succ n => rfl

/-- The proof data of the one pipeline on core `c`: the arrays as the region finds them; after the body the
    feature and weight buffers at their blocks, the adjacency buffer at its block (filled out past the array's end
    with a word nothing reads), the output buffer at a placeholder nothing reads (that window is forgotten);
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Scalar.ofBits .f32 0#32) (iblk m c 2 t)
    | ⟨3, _⟩ => fun _ => Scalar.ofBits .f32 0#32
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t
    = win0_2.fill (grid0.coords t) (fun _ => Scalar.ofBits .f32 0#32) (iblk m c 2 t) := by dsimp only [dats]

/-- What the body finds: the feature and weight buffers at their blocks, fetched at this point or not; -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- the adjacency buffer just fetched: its block on the rows inside the array, anything past them; -/
theorem before2 (c : Dev nD) (t : Fin cfg0.N) (d) :
    (dats m 0 c).before 2 t d = win0_2.fill (grid0.coords t) d (iblk m c 2 t) :=
  ((dats m 0 c).before_fetched 2 t (fetch0_2 t) d).trans
    (by unfold Dat.fetched Dat.blockOf iblk; rw [A_eq m c 2]; try rfl)
/-- the output buffer at anything (it was written back at the point before). -/
theorem before3 (c : Dev nD) (t : Fin cfg0.N) (d) : (dats m 0 c).before 3 t d = d :=
  (dats m 0 c).before_out_reset 3 rfl t
    (by by_cases h0 : t.val = 0
        · exact .inl h0
        · exact .inr ⟨h0, flush0_3 _⟩) d

end Cert.Kernel.Body

end
-- ==== Proof.OblK.lean ====
/-
  The body's obligation at every point and the run of the whole program, for the frame: the program terminates,
  nothing faults, and the three argument arrays end as they began.

  At the first point the scratch buffer is found at anything and left at the support matrix; at a later point it is
  found at the support matrix and left as found. The feature, weight and adjacency buffers are only read. Nothing is
  claimed of the output array's contents here, so the output window is forgotten: its staging buffer is handed to the
  body at any contents and taken back at any contents. An input array is never written, so it ends at its entry
  contents.
-/
import proofs.«123786_g16252156248657_cont_week2b_908_7_alg».proof.Proof.DataK
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents the frame does not read: the output's. -/
abbrev fgtOut : Fin cfg0.W → Bool := fun | 0 => false | 1 => false | 2 => false | 3 => true | ⟨_ + 4, h⟩ => absurd h (Nat.not_lt.2 (Nat.le_add_left _ _))

set_option maxHeartbeats 1600000 in
/-- The body at any point, from what the pipeline hands it to what the loose obligation asks back. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ X, owns (c : Thread nD τ) (st0_3 t) fullShare X))
    ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ (∃ d, owns (c : Thread nD τ) (st0_2 t) fullShare (win0_2.fill (grid0.coords t) d (win0_2.cut (grid0.coords t) ((dats m 0 c).after 2 t))))
          ∗ (∃ X, owns (c : Thread nD τ) (st0_3 t) fullShare X))) := by
  unfold bodyAt0
  simp only [before0, before1, before2, after0, after1, after2, Window.cut_fill]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from rfl, PhiS_pos m c (t.val + 1) (Nat.succ_ne_zero _)]
  by_cases h0 : t.val = 0
  · rw [h0, show PhiS m c 0 = Pipeline.ΦA spec0 c from rfl, PhiA_eq]
    iintro ⟨⟨HS, Hg⟩, Ho, ⟨%d0, H0⟩, ⟨%d1, H1⟩, ⟨%d2, H2⟩, ⟨%d3, H3⟩⟩
    iapply ((runFirst (F := F) c (grid0.coords t) _ _ _ _ _ _ _ _ scM (Memref.isWhole_whole _) ((atFirst_iff t).mpr h0)
      (iblk m c 0 t) (iblk m c 1 t) (win0_2.fill (grid0.coords t) d2 (iblk m c 2 t))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%f4, H4⟩, ⟨%f5, H5⟩⟩
    isplitl [H5 Hg]
    · isplitl [H5]
      · unfold owns; iexists _; isplitr
        swap; · iexact H5
        ipureintro
        rw [scratchFirst_eq, iblk0_eq, iblk1_eq]; rfl
      iexact Hg
    isplitl [Ho]; · iexact Ho
    isplitl [H0]; · iexact H0
    isplitl [H1]; · iexact H1
    isplitl [H2]; · iexists d2; iexact H2
    iexists _
    unfold owns; iexists _; isplitr
    swap; · iexact H4
    ipureintro; rfl
  · rw [PhiS_pos m c t.val h0]
    iintro ⟨⟨HS, Hg⟩, Ho, ⟨%d0, H0⟩, ⟨%d1, H1⟩, ⟨%d2, H2⟩, ⟨%d3, H3⟩⟩
    iapply ((runLater (F := F) c (grid0.coords t) _ _ _ _ _ _ _ _ scM (Memref.isWhole_whole _) (fun h => h0 ((atFirst_iff t).mp h))
      (iblk m c 0 t) (iblk m c 1 t) (win0_2.fill (grid0.coords t) d2 (iblk m c 2 t)) (supp m c)).2 Set.univ _)
    isplitl [H0]; · iexact H0
    isplitl [H1]; · iexact H1
    isplitl [H2]; · iexact H2
    isplitl [H3]; · iexists _; iexact H3
    isplitl [HS]; · iexact HS
    iintro ⟨H0, H1, H2, ⟨%f4, H4⟩, HS⟩
    isplitl [HS Hg]
    · isplitl [HS]; · iexact HS
      iexact Hg
    isplitl [Ho]; · iexact Ho
    isplitl [H0]; · iexact H0
    isplitl [H1]; · iexact H1
    isplitl [H2]; · iexists d2; iexact H2
    iexists _
    unfold owns; iexists _; isplitr
    swap; · iexact H4
    ipureintro; rfl

/-- The library's body obligation, at every point, in its loose form, the output window forgotten. -/
theorem body_obligation (c : Dev nD) :
    BodyObligationLoose (dats (F := F) m 0 c) (defs₀ (F := F)) Variants.none () Set.univ fgtOut := fun t => by
  rw [bigSep_W0, bigSep_W0]
  exact sound_body m c t

/-- What the launch hands the region is the invariant before the first point, -/
theorem hin (c : Dev nD) : Pipeline.ΦA spec0 c ⊢ (dats m 0 c).Φ 0 :=
  Idealize.SL.BI.Entails.refl _

/-- and after the last point the invariant gives it back, the scratch's contents forgotten. -/
theorem hout (c : Dev nD) : (dats m 0 c).Φ (Fin.last cfg0.N) ⊢ Pipeline.ΦA spec0 c := by
  rw [show (dats m 0 c).Φ (Fin.last cfg0.N) = PhiS m c 20 from rfl, PhiS_pos m c 20 (by decide), PhiA_eq]
  iintro ⟨HS, Hg⟩
  isplitl [HS]
  · iexists _; iexact HS
  iexact Hg

set_option backward.isDefEq.respectTransparency.types false in
/-- At the compiled mesh, for any values, from any memory with zero counters: every weakly fair execution of the
    program terminates, every array of the pipeline ends at contents the data allows (an input: its entry contents),
    and every other unscoped buffer as it was. -/
theorem run_main : θ_run defs (onTc (τ := τ) (main (F := F))) (s₀ m ρ)
    (Pipeline.RDat.FramePost cfg0 (fun c => (dats m 0 c).toRForget fgtOut) (V m)) :=
  Pipeline.RDat.θ_run_frame_track cfgs (0 : Fin 1) launch0 defs₀ Variants.none (fun c => (dats m 0 c).toRForget fgtOut) m ρ main
    (hbody := fun c => (body_obligation m c).toRForget) (hshare := fun c => (dats m 0 c).share_full fun _ => rfl)
    (howed := fun _ _ => rfl) (V := V m) (hmain := hmain m Variants.none) (hA := A_eq m)
    (hin := hin m) (hout := hout m)

/-- THE FRAME: the three argument arrays are inputs of the pipeline, never written, so each ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have h0 := (h c).1 0; have h1 := (h c).1 1; have h2 := (h c).1 2
    rw [Pipeline.RDat.ArrAt_in _ 0 rfl] at h0
    rw [Pipeline.RDat.ArrAt_in _ 1 rfl] at h1
    rw [Pipeline.RDat.ArrAt_in _ 2 rfl] at h2
    exact ⟨h0.trans (V_main_arg0 m c), h2.trans (V_main_arg1 m c), h1.trans (V_main_arg2 m c)⟩) (run_main m ρ)

end Cert.Kernel.Body

end
-- ==== Proof.RunsI.lean ====
/-
  The kernel body of the graph-convolution layer, run once for each of its two control cases.

  The body first asks whether it is at the first grid point. If so it loads the whole feature matrix and the whole
  weight matrix, multiplies them, and stores the product (the "support" matrix, 10000 x 128) into a scratch buffer
  that the later points find unchanged. At every point it then loads its 512 x 10000 row block of the adjacency
  matrix and the support matrix from the scratch buffer, multiplies them, and stores the 512 x 128 product into the
  output block. Each store covers its buffer whole, so what a buffer holds afterwards is the stored value alone.
-/
import proofs.«123786_g16252156248657_cont_week2b_908_7_alg».proof.Proof.Gen.KernelIdeal.Skeleton
import proofs.«123786_g16252156248657_cont_week2b_908_7_alg».proof.Proof.Gen.KernelIdeal.Launch
import proofs.«123786_g16252156248657_cont_week2b_908_7_alg».proof.Proof.Gen.KernelIdeal.Points
import proofs.«123786_g16252156248657_cont_week2b_908_7_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, as a statement about the grid coordinate: "this is the first point". -/
abbrev atFirst (i : grid0.Coords) : Prop :=
  (Scalar.cmpi .ne (Scalar.extui (Scalar.cmpi .eq (BitVec.ofNat 32 (i 0).val) 0#32)) 0#32) = 1#1

/-- Over the twenty points of the grid the condition holds exactly at point 0. -/
theorem atFirst_iff : ∀ t : Fin cfg0.N, atFirst (grid0.coords t) ↔ t.val = 0 :=
  (by decide +kernel : ∀ t : Fin grid0.N, atFirst (grid0.coords t) ↔ t.val = 0)

set_option maxHeartbeats 1000000 in
/-- The body at the FIRST point, on any whole buffers: the feature, weight and adjacency buffers are read and
    handed back as they were; the output buffer and the scratch buffer, found at any contents, are each left with
    one whole-buffer store written over them (the two lists of stores are what the run finds). -/
noncomputable def runFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S512x10000 .f32) (harg3 : arg3.IsWhole) (arg4 : Memref sig .tc .vmem S512x128 .f32) (harg4 : arg4.IsWhole)
    (arg5 : Memref sig .tc .vmem S10000x128 .bf16) (harg5 : arg5.IsWhole) (hc : atFirst i)
    (x1 : Vec F S10000x128 .f32) (x2 : Vec F S128x128 .f32) (x3 : Vec F S512x10000 .f32) :
    Σ' (L4 : List (View.Piece (Elt F) S512x128 .f32)), { L5 : List (View.Piece (Elt F) S10000x128 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__gcn_kernel i arg1 harg1 arg2 harg2 arg3 harg3 arg4 harg4 arg5 harg5) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    · iexists _; iexact H5

set_option maxHeartbeats 1000000 in
/-- The body at a LATER point, on any whole buffers: the scratch buffer is found holding `xs` and handed back
    holding it; the output buffer is left with one whole-buffer store written over it. -/
noncomputable def runLater (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S512x10000 .f32) (harg3 : arg3.IsWhole) (arg4 : Memref sig .tc .vmem S512x128 .f32) (harg4 : arg4.IsWhole)
    (arg5 : Memref sig .tc .vmem S10000x128 .bf16) (harg5 : arg5.IsWhole) (hc : ¬atFirst i)
    (x1 : Vec F S10000x128 .f32) (x2 : Vec F S128x128 .f32) (x3 : Vec F S512x10000 .f32) (xs : Vec F S10000x128 .bf16) :
    { L4 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xs
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xs) -∗ K ⟨⟩))
          ⊢ wp frame (wpE (defs₀ (F := F)) Variants.none c none) E (cc0__gcn_kernel i arg1 harg1 arg2 harg2 arg3 harg3 arg4 harg4 arg5 harg5) K } := by
  refine ⟨?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%d4, %f4, -, H4⟩, ⟨%f5, %hf5, H5⟩, Hk⟩
    obtain rfl := harg1.eq_unread hf1; obtain rfl := harg2.eq_unread hf2; obtain rfl := harg3.eq_unread hf3
    obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    · iexists _; isplitr; · ipureintro; exact harg5.read_unread _
      iexact H5

end Cert.KernelIdeal.Body

end
-- ==== Proof.PiecesI.lean ====
/-
  What the body's stores leave, read back. Every store of the body writes its buffer whole (offset zero, the
  buffer's own extents), and every load reads its buffer whole, so after the body a stored buffer reads as the stored
  value alone, computed from what the loaded buffers held: the support matrix is the product of the feature and weight
  buffers' contents, and the output block is the product of the adjacency buffer's contents with the support matrix
  (the one just stored at the first point, the one found in the scratch buffer at a later point).
-/
import proofs.«123786_g16252156248657_cont_week2b_908_7_alg».proof.Proof.RunsI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of every access of the body are zero on both axes. -/
theorem offs_zero : (![0, 0] : Fin 2 → Nat) = fun _ => 0 := funext fun a => by fin_cases a <;> rfl

/-- After a later point the output buffer reads the product of the adjacency buffer's contents and the scratch's. -/
theorem outLater_eq (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S512x10000 .f32) (harg3 : arg3.IsWhole) (arg4 : Memref sig .tc .vmem S512x128 .f32) (harg4 : arg4.IsWhole)
    (arg5 : Memref sig .tc .vmem S10000x128 .bf16) (harg5 : arg5.IsWhole) (hc : ¬atFirst i)
    (x1 : Vec F S10000x128 .f32) (x2 : Vec F S128x128 .f32) (x3 : Vec F S512x10000 .f32) (xs : Vec F S10000x128 .bf16)
    (f : arg4.view.ty.Contents (Elt F)) :
    arg4.view.read (Elt F) (arg4.view.writes (Elt F) f (runLater (F := F) c i arg1 harg1 arg2 harg2 arg3 harg3 arg4 harg4 arg5 harg5 hc x1 x2 x3 xs).1) = k0_pay2 x3 xs := by
  unfold runLater; dsimp only
  rw [View.read_writes_eq_canon _ _ _ (fun y => ⟨_, List.mem_singleton_self _, View.mem_set_unit_zero offs_zero inb_S512x128_S512x128_0_0 y⟩),
    View.canon_unit_zero offs_zero]
  simp only [View.readAt_eq_ld, harg3.read_unread, harg5.read_unread, View.ld_unit_zero (S := S512x10000) offs_zero,
    View.ld_unit_zero (S := S10000x128) offs_zero]

/-- After the first point the scratch buffer reads the product of the feature and weight buffers' contents. -/
theorem scratchFirst_eq (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S512x10000 .f32) (harg3 : arg3.IsWhole) (arg4 : Memref sig .tc .vmem S512x128 .f32) (harg4 : arg4.IsWhole)
    (arg5 : Memref sig .tc .vmem S10000x128 .bf16) (harg5 : arg5.IsWhole) (hc : atFirst i)
    (x1 : Vec F S10000x128 .f32) (x2 : Vec F S128x128 .f32) (x3 : Vec F S512x10000 .f32)
    (f : arg5.view.ty.Contents (Elt F)) :
    arg5.view.read (Elt F) (arg5.view.writes (Elt F) f (runFirst (F := F) c i arg1 harg1 arg2 harg2 arg3 harg3 arg4 harg4 arg5 harg5 hc x1 x2 x3).2.1) = k0_pay1 x1 x2 := by
  unfold runFirst; dsimp only; sl_unfold_words
  rw [View.read_writes_eq_canon _ _ _ (fun y => ⟨_, List.mem_singleton_self _, View.mem_set_unit_zero offs_zero inb_S10000x128_S10000x128_0_0 y⟩),
    View.canon_unit_zero offs_zero]
  simp only [View.readAt_eq_ld, harg1.read_unread, harg2.read_unread, View.ld_unit_zero (S := S10000x128) offs_zero,
    View.ld_unit_zero (S := S128x128) offs_zero]

/-- After the first point the output buffer reads the product of the adjacency buffer's contents with that
    support matrix: the load of the scratch buffer after the store reads what was stored. -/
theorem outFirst_eq (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S512x10000 .f32) (harg3 : arg3.IsWhole) (arg4 : Memref sig .tc .vmem S512x128 .f32) (harg4 : arg4.IsWhole)
    (arg5 : Memref sig .tc .vmem S10000x128 .bf16) (harg5 : arg5.IsWhole) (hc : atFirst i)
    (x1 : Vec F S10000x128 .f32) (x2 : Vec F S128x128 .f32) (x3 : Vec F S512x10000 .f32)
    (f : arg4.view.ty.Contents (Elt F)) :
    arg4.view.read (Elt F) (arg4.view.writes (Elt F) f (runFirst (F := F) c i arg1 harg1 arg2 harg2 arg3 harg3 arg4 harg4 arg5 harg5 hc x1 x2 x3).1) = k0_pay2 x3 (k0_pay1 x1 x2) := by
  unfold runFirst; dsimp only; sl_unfold_words
  rw [View.read_writes_eq_canon _ _ _ (fun y => ⟨_, List.mem_singleton_self _, View.mem_set_unit_zero offs_zero inb_S512x128_S512x128_0_0 y⟩),
    View.canon_unit_zero offs_zero]
  simp only [View.readAt_eq_ld, harg1.read_unread, harg2.read_unread, harg3.read_unread,
    View.ld_unit_zero (S := S10000x128) offs_zero, View.ld_unit_zero (S := S512x10000) offs_zero,
    View.ld_unit_zero (S := S128x128) offs_zero, View.readCov_unit_zero (S := S10000x128) arg5.view offs_zero]

end Cert.KernelIdeal.Body

end
-- ==== Proof.DataI.lean ====
/-
  The pipeline's proof data and the body's obligation, with the output's contents named.

  The grid has twenty points; point t handles rows 512 t .. 512 t + 511 of the adjacency matrix and of the output
  (the last block reaches past row 9999, and only its 272 rows inside the arrays are moved in or out). The feature and
  weight windows are the whole arrays at every point. The scratch buffer holds anything before the first point and
  the support matrix (features times weights) from then on: this is the invariant carried from point to point.
  What the output's staging buffer holds after the body is stated only on the rows inside the array, as a given
  whole-array function read through the point's block; that the body's product agrees with it there is the
  hypothesis this module is stated under.
-/
import proofs.«123786_g16252156248657_cont_week2b_908_7_alg».proof.Proof.PiecesI
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The feature and weight arrays as the region finds them, and the scratch buffer as a memref. -/
abbrev feat (c : Dev nD) : Vec F S10000x128 .f32 := V m c main_arg0
abbrev wgt (c : Dev nD) : Vec F S128x128 .f32 := V m c main_arg2
abbrev scM : Memref sig .tc .vmem S10000x128 .bf16 := Memref.whole cc0_scratch0

/-- The support matrix: the body's first product, of the whole feature and weight arrays. -/
def supp (c : Dev nD) : Vec F S10000x128 .bf16 := k0_pay1 (feat m c) (wgt m c)

/-- The feature and weight windows' blocks sit at offset zero at every point. -/
theorem index0_zero : ∀ t : Fin cfg0.N, ∀ a : Fin 2, win0_0.index t a = 0 :=
  (by decide +kernel : ∀ t : Fin grid0.N, ∀ a : Fin 2, win0_0.index t a = 0)
theorem index1_zero : ∀ t : Fin cfg0.N, ∀ a : Fin 2, win0_1.index t a = 0 :=
  (by decide +kernel : ∀ t : Fin grid0.N, ∀ a : Fin 2, win0_1.index t a = 0)

/-- So the feature window's block is the whole feature array at every point, -/
theorem iblk0_eq (c : Dev nD) (t : Fin cfg0.N) : iblk m c 0 t = feat m c := by
  funext y
  unfold iblk
  rw [View.read_apply]
  show V m c main_arg0 (((cfg0.win 0).blk t).view.emb y) = V m c main_arg0 y
  refine congrArg (V m c main_arg0) (funext fun a => Fin.ext ?_)
  show win0_0.index t a * win0_0.size a + 1 * (y a).val = (y a).val
  rw [index0_zero t a]; omega

/-- and the weight window's the whole weight array. -/
theorem iblk1_eq (c : Dev nD) (t : Fin cfg0.N) : iblk m c 1 t = wgt m c := by
  funext y
  unfold iblk
  rw [View.read_apply]
  show V m c main_arg2 (((cfg0.win 1).blk t).view.emb y) = V m c main_arg2 y
  refine congrArg (V m c main_arg2) (funext fun a => Fin.ext ?_)
  show win0_1.index t a * win0_1.size a + 1 * (y a).val = (y a).val
  rw [index1_zero t a]; omega

/-- The class's region invariant, the scratch buffer written as an owned memref at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`: before the first point the scratch holds anything; afterwards the support
    matrix. -/
def PhiS (c : Dev nD) : ℕ → sProp 𝕄
  | 0 => Pipeline.ΦA spec0 c
  | _ + 1 => iprop(iprop(owns (c : Thread nD τ) scM fullShare (supp m c)) ∗ (∃ r, prngReg c r))

theorem PhiS_pos (c : Dev nD) (n : ℕ) (hn : n ≠ 0) :
    PhiS m c n = iprop(iprop(owns (c : Thread nD τ) scM fullShare (supp m c)) ∗ (∃ r, prngReg c r)) := by
  cases n with
  | zero => exact absurd rfl hn
  | succ n => rfl

variable (Gout : (c : Dev nD) → Buf (Elt F) ((cfg0.win 3).arr.view.loc (c.tc : Thread nD τ)))

/-- The proof data of the one pipeline on core `c`: the arrays as the region finds them; after the body the
    feature and weight buffers at their blocks, the adjacency buffer at its block (filled out past the array's end
    with a word nothing reads), the output buffer at `Gout` read through the point's block (filled out likewise);
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Scalar.ofBits .f32 0#32) (iblk m c 2 t)
    | ⟨3, _⟩ => win0_3.fill (grid0.coords t) (fun _ => Scalar.ofBits .f32 0#32) ((win0_3.blk t).view.read (Elt F) (Gout c))
  Φ t := PhiS m c t.val
  q _ := fullShare
  owed _ := 0

theorem A_eq (c : Dev nD) (w : Fin cfg0.W) : (dats m Gout 0 c).A w = V m c (Pipeline.arrRef spec0 w) := by
  dsimp only [dats]

theorem after0 (c : Dev nD) (t : Fin cfg0.N) : (dats m Gout 0 c).after 0 t = iblk m c 0 t := by dsimp only [dats]
theorem after1 (c : Dev nD) (t : Fin cfg0.N) : (dats m Gout 0 c).after 1 t = iblk m c 1 t := by dsimp only [dats]
theorem after2 (c : Dev nD) (t : Fin cfg0.N) : (dats m Gout 0 c).after 2 t
    = win0_2.fill (grid0.coords t) (fun _ => Scalar.ofBits .f32 0#32) (iblk m c 2 t) := by dsimp only [dats]
theorem after3 (c : Dev nD) (t : Fin cfg0.N) : (dats m Gout 0 c).after 3 t
    = win0_3.fill (grid0.coords t) (fun _ => Scalar.ofBits .f32 0#32) ((win0_3.blk t).view.read (Elt F) (Gout c)) := by
  dsimp only [dats]

/-- What the body finds: the feature and weight buffers at their blocks, fetched at this point or not; -/
theorem before0 (c : Dev nD) (t : Fin cfg0.N) (d) : (dats m Gout 0 c).before 0 t d = iblk m c 0 t :=
  before0_0_of m (dats m Gout 0 c) (A_eq m Gout c 0) (after0 m Gout c) t d
theorem before1 (c : Dev nD) (t : Fin cfg0.N) (d) : (dats m Gout 0 c).before 1 t d = iblk m c 1 t :=
  before0_1_of m (dats m Gout 0 c) (A_eq m Gout c 1) (after1 m Gout c) t d
/-- the adjacency buffer just fetched: its block on the rows inside the array, anything past them; -/
theorem before2 (c : Dev nD) (t : Fin cfg0.N) (d) :
    (dats m Gout 0 c).before 2 t d = win0_2.fill (grid0.coords t) d (iblk m c 2 t) :=
  ((dats m Gout 0 c).before_fetched 2 t (fetch0_2 t) d).trans
    (by unfold Dat.fetched Dat.blockOf iblk; rw [A_eq m Gout c 2]; try rfl)
/-- the output buffer at anything (it was written back at the point before). -/
theorem before3 (c : Dev nD) (t : Fin cfg0.N) (d) : (dats m Gout 0 c).before 3 t d = d :=
  (dats m Gout 0 c).before_out_reset 3 rfl t
    (by by_cases h0 : t.val = 0
        · exact .inl h0
        · exact .inr ⟨h0, flush0_3 _⟩) d

end Cert.KernelIdeal.Body

end
-- ==== Proof.OblI.lean ====
/-
  The body's obligation at every point, the run of the whole program, and the output array after the run.

  At the first point the scratch buffer is found at anything and left at the support matrix; at a later point it is
  found at the support matrix and left as found. At every point the output buffer is left at the product of the
  adjacency buffer's contents (its block on the rows inside the array, anything past them) with the support matrix.
  On the rows inside the array that product is the given whole-array function read through the block (the hypothesis
  `hG`): the rows past the array's end are never written back, so nothing is said of them. The output's blocks
  together contain every row 0 .. 9999 (row r lies in block r / 512), so the output array ends holding that function.
-/
import proofs.«123786_g16252156248657_cont_week2b_908_7_alg».proof.Proof.DataI
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (Gout : (c : Dev nD) → Buf (Elt F) ((cfg0.win 3).arr.view.loc (c.tc : Thread nD τ)))
/- The hypothesis: on the rows a point's write-back moves, the body's second product — of the adjacency block
    filled out with anything and the support matrix — is `Gout` read through the point's output block. -/
variable (hG : ∀ (c : Dev nD) (t : Fin cfg0.N) (d : S512x10000.Idx → Elt F .f32),
    win0_3.cut (grid0.coords t) (k0_pay2 (win0_2.fill (grid0.coords t) d (iblk m c 2 t)) (supp m c))
      = (win0_3.blk t).view.read (Elt F) (Gout c))

set_option maxHeartbeats 1600000 in
include hG in
/-- The body at any point, from what the pipeline hands it to what the loose obligation asks back. -/
theorem sound_body (c : Dev nD) (t : Fin cfg0.N) :
    iprop((dats m Gout 0 c).Φ t.castSucc ∗ (dats m Gout 0 c).owesAt () t.castSucc
      ∗ (∃ d, owns (c : Thread nD τ) (st0_0 t) fullShare ((dats m Gout 0 c).before 0 t d))
      ∗ (∃ d, owns (c : Thread nD τ) (st0_1 t) fullShare ((dats m Gout 0 c).before 1 t d))
      ∗ (∃ d, owns (c : Thread nD τ) (st0_2 t) fullShare ((dats m Gout 0 c).before 2 t d))
      ∗ (∃ d, owns (c : Thread nD τ) (st0_3 t) fullShare ((dats m Gout 0 c).before 3 t d)))
    ⊢ wp frame (wpE (defs₀ (F := F)) Variants.none c none) Set.univ (bodyAt0 t) (fun _ =>
        iprop((dats m Gout 0 c).Φ t.succ ∗ (dats m Gout 0 c).owesAt () t.succ
          ∗ owns (c : Thread nD τ) (st0_0 t) fullShare ((dats m Gout 0 c).after 0 t)
          ∗ owns (c : Thread nD τ) (st0_1 t) fullShare ((dats m Gout 0 c).after 1 t)
          ∗ (∃ d, owns (c : Thread nD τ) (st0_2 t) fullShare (win0_2.fill (grid0.coords t) d (win0_2.cut (grid0.coords t) ((dats m Gout 0 c).after 2 t))))
          ∗ (∃ d, owns (c : Thread nD τ) (st0_3 t) fullShare (win0_3.fill (grid0.coords t) d (win0_3.cut (grid0.coords t) ((dats m Gout 0 c).after 3 t)))))) := by
  unfold bodyAt0
  simp only [before0, before1, before2, before3, after0, after1, after2, after3, Window.cut_fill]
  rw [show (dats m Gout 0 c).owesAt () t.succ = (dats m Gout 0 c).owesAt () t.castSucc from rfl]
  rw [show (dats m Gout 0 c).Φ t.succ = PhiS m c (t.val + 1) from rfl,
    show (dats m Gout 0 c).Φ t.castSucc = PhiS m c t.val from rfl, PhiS_pos m c (t.val + 1) (Nat.succ_ne_zero _)]
  by_cases h0 : t.val = 0
  · rw [h0, show PhiS m c 0 = Pipeline.ΦA spec0 c from rfl, PhiA_eq]
    iintro ⟨⟨HS, Hg⟩, Ho, ⟨%d0, H0⟩, ⟨%d1, H1⟩, ⟨%d2, H2⟩, ⟨%d3, H3⟩⟩
    iapply ((runFirst (F := F) c (grid0.coords t) _ _ _ _ _ _ _ _ scM (Memref.isWhole_whole _) ((atFirst_iff t).mpr h0)
      (iblk m c 0 t) (iblk m c 1 t) (win0_2.fill (grid0.coords t) d2 (iblk m c 2 t))).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%f4, H4⟩, ⟨%f5, H5⟩⟩
    isplitl [H5 Hg]
    · isplitl [H5]
      · unfold owns; iexists _; isplitr
        swap; · iexact H5
        ipureintro
        rw [scratchFirst_eq, iblk0_eq, iblk1_eq]; rfl
      iexact Hg
    isplitl [Ho]; · iexact Ho
    isplitl [H0]; · iexact H0
    isplitl [H1]; · iexact H1
    isplitl [H2]; · iexists d2; iexact H2
    iexists (k0_pay2 (win0_2.fill (grid0.coords t) d2 (iblk m c 2 t)) (supp m c))
    unfold owns; iexists _; isplitr
    swap; · iexact H4
    ipureintro
    rw [outFirst_eq, iblk0_eq, iblk1_eq, ← hG c t d2, Window.fill_cut]; rfl
  · rw [PhiS_pos m c t.val h0]
    iintro ⟨⟨HS, Hg⟩, Ho, ⟨%d0, H0⟩, ⟨%d1, H1⟩, ⟨%d2, H2⟩, ⟨%d3, H3⟩⟩
    iapply ((runLater (F := F) c (grid0.coords t) _ _ _ _ _ _ _ _ scM (Memref.isWhole_whole _) (fun h => h0 ((atFirst_iff t).mp h))
      (iblk m c 0 t) (iblk m c 1 t) (win0_2.fill (grid0.coords t) d2 (iblk m c 2 t)) (supp m c)).2 Set.univ _)
    isplitl [H0]; · iexact H0
    isplitl [H1]; · iexact H1
    isplitl [H2]; · iexact H2
    isplitl [H3]; · iexists _; iexact H3
    isplitl [HS]; · iexact HS
    iintro ⟨H0, H1, H2, ⟨%f4, H4⟩, HS⟩
    isplitl [HS Hg]
    · isplitl [HS]; · iexact HS
      iexact Hg
    isplitl [Ho]; · iexact Ho
    isplitl [H0]; · iexact H0
    isplitl [H1]; · iexact H1
    isplitl [H2]; · iexists d2; iexact H2
    iexists (k0_pay2 (win0_2.fill (grid0.coords t) d2 (iblk m c 2 t)) (supp m c))
    unfold owns; iexists _; isplitr
    swap; · iexact H4
    ipureintro
    rw [outLater_eq, ← hG c t d2, Window.fill_cut]

include hG in
/-- The library's body obligation, at every point, in its loose form (the adjacency and output windows are stated on
    the rows their transfers move). -/
theorem body_obligation (c : Dev nD) :
    BodyObligationLoose (dats (F := F) m Gout 0 c) (defs₀ (F := F)) Variants.none () Set.univ := fun t => by
  rw [bigSep_W0, bigSep_W0]
  exact sound_body m Gout hG c t

/-- What the launch hands the region is the invariant before the first point, -/
theorem hin (c : Dev nD) : Pipeline.ΦA spec0 c ⊢ (dats m Gout 0 c).Φ 0 :=
  Idealize.SL.BI.Entails.refl _

/-- and after the last point the invariant gives it back, the scratch's contents forgotten. -/
theorem hout (c : Dev nD) : (dats m Gout 0 c).Φ (Fin.last cfg0.N) ⊢ Pipeline.ΦA spec0 c := by
  rw [show (dats m Gout 0 c).Φ (Fin.last cfg0.N) = PhiS m c 20 from rfl, PhiS_pos m c 20 (by decide), PhiA_eq]
  iintro ⟨HS, Hg⟩
  isplitl [HS]
  · iexists _; iexact HS
  iexact Hg

set_option backward.isDefEq.respectTransparency.types false in
include hG in
/-- At the compiled mesh, for any values, from any memory with zero counters: every weakly fair execution of the
    program terminates, every array of the pipeline ends at what the proof data computes, and every other unscoped
    buffer as it was. -/
theorem run_main : θ_run defs (onTc (τ := τ) (main (F := F))) (s₀ m ρ) (Pipeline.FramePost cfgs (dats m Gout) 0 (V m)) :=
  Pipeline.θ_run_frame_track cfgs (dats m Gout) (0 : Fin 1) launch0 defs₀ Variants.none m ρ main
    (hbody := fun c => body_obligation m Gout hG c) (hshare := fun c => (dats m Gout 0 c).share_full fun _ => rfl)
    (howed := fun _ _ => rfl) (V := V m) (hmain := hmain m Variants.none) (hA := A_eq m Gout)
    (hin := hin m Gout) (hout := hout m Gout)

/-! ## The output array after the run -/

/-- An index of the output array lies in point `t`'s block exactly when its row is one of the rows the block has
    inside the array. -/
theorem mem_blk3 (t : Fin cfg0.N) (i : S10000x128.Idx) :
    i ∈ (win0_3.blk t).view.set ↔ win0_3.index t 0 * 512 ≤ (i 0 : Nat) ∧ (i 0 : Nat) < win0_3.index t 0 * 512 + win0_3.xsize (grid0.coords t) 0 := by
  show i ∈ ((View.whole main_v0).slice (win0_3.rect t)).set ↔ _
  rw [View.set_slice_whole, Rect.mem_set_unit]
  have h1 : (i 1 : Nat) < 128 := (i 1).isLt
  have e1 : ∀ t : Fin cfg0.N, win0_3.index t 1 * win0_3.size 1 = 0 ∧ win0_3.xsize (grid0.coords t) 1 = 128 :=
    (by decide +kernel : ∀ t : Fin grid0.N, win0_3.index t 1 * win0_3.size 1 = 0 ∧ win0_3.xsize (grid0.coords t) 1 = 128)
  refine ⟨fun h => h 0, fun h a => ?_⟩
  match a with
  | ⟨0, _⟩ => exact h
  | ⟨1, _⟩ =>
    change win0_3.index t 1 * win0_3.size 1 ≤ (i 1 : Nat) ∧ (i 1 : Nat) < win0_3.index t 1 * win0_3.size 1 + win0_3.xsize (grid0.coords t) 1
    rw [(e1 t).1, (e1 t).2]; omega

/-- Block `t` starts at row 512 t and has 512 rows inside the array, except the last, which has 272. -/
theorem rows3 : ∀ t : Fin cfg0.N, win0_3.index t 0 = t.val ∧ win0_3.xsize (grid0.coords t) 0 = (if t.val = 19 then 272 else 512) :=
  (by decide +kernel : ∀ t : Fin grid0.N, win0_3.index t 0 = t.val ∧ win0_3.xsize (grid0.coords t) 0 = (if t.val = 19 then 272 else 512))

/-- The output array after the run holds `Gout`: every point writes back `Gout` read through its block, and the
    blocks contain every row. -/
theorem final_out (c : Dev nD) : (dats m Gout 0 c).arrAt 3 cfg0.N = Gout c :=
  (dats m Gout 0 c).arrAt_eq_of_cover 3 (Gout c)
    (fun t _ => by
      show win0_3.cut (grid0.coords t) ((dats m Gout 0 c).after 3 t) = _
      rw [after3, Window.cut_fill])
    (fun i => by
      have hr : (i 0 : Nat) < 10000 := (i 0).isLt
      refine ⟨⟨(i 0 : Nat) / 512, by show _ < 20; omega⟩, flush0_3 _, ?_⟩
      rw [mem_blk3, (rows3 _).1, (rows3 _).2]
      dsimp only
      split <;> omega)

end Cert.KernelIdeal.Body

end
-- ==== Proof.ValueI.lean ====
/-
  The idealized kernel's arithmetic, read at an index, and the function the output array ends at.

  Over the extended reals a change of float format is the identity and the matrix unit's product into a zero
  accumulator is the plain sum, so the support matrix at (k, l) is  sum_j features[k, j] * weights[j, l]  and the
  body's second product at (r, l) is  sum_k block[r, k] * support[k, l].  Row r of that product reads only row r of
  the adjacency block; for a row inside the array that row is row 512 t + r of the adjacency matrix, whatever the
  buffer holds past the array's end. So on the rows a point writes back, the body's product is

      G[i, l] = sum_k adjacency[i, k] * ( sum_j features[k, j] * weights[j, l] )

  read through the point's output block.
-/
import proofs.«123786_g16252156248657_cont_week2b_908_7_alg».proof.Proof.OblI
import Idealize.ShloMosaic.Lib.ValueIdx
import Idealize.ShloMosaic.Lib.Pipeline.Value
import Idealize.ShloMosaic.PureOps.Ideal.Laws

set_option maxRecDepth 16384

noncomputable section

namespace Cert.KernelIdeal.IdealValue

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

/-- The layer's result as one function of the three argument arrays, index by index. -/
def G (feat : Vec Ideal ⟨2, ![10000, 128]⟩ .f32) (adj : Vec Ideal ⟨2, ![10000, 10000]⟩ .f32) (wgt : Vec Ideal ⟨2, ![128, 128]⟩ .f32) :
    Vec Ideal ⟨2, ![10000, 128]⟩ .f32 :=
  fun i => ∑ k : Fin 10000, adj (ix2 ⟨(i 0).val, (i 0).isLt⟩ k) * ∑ j : Fin 128, feat (ix2 k j) * wgt (ix2 j ⟨(i 1).val, (i 1).isLt⟩)

/-! ## The two matrix products at an index -/

theorem lhs1_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs1_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs1_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs1_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The support matrix at an index: row `k` of the features against column `l` of the weights. -/
theorem pay1_apply (x1 : Vec Ideal S10000x128 .f32) (x2 : Vec Ideal S128x128 .f32) (r : Fin 10000) (l : Fin 128) :
    k0_pay1 (F := Ideal) x1 x2 (ix2 r l) = ∑ j : Fin 128, x1 (ix2 r j) * x2 (ix2 j l) := by
  unfold k0_pay1
  rw [shapeCast_self]
  refine (Ideal.matmul_constant_zero_apply dot_S10000x128_S128x128_S10000x128_1_0_0_1_n_n none _ _ (ix2 r l)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r l) ((contrEquiv1 dot_S10000x128_S128x128_S10000x128_1_0_0_1_n_n 128 rfl rfl).symm k) = ix2 r k := funext fun a => Fin.ext (by
    match a with
    | ⟨0, _⟩ => exact lhs1_0 _ _
    | ⟨1, _⟩ => exact (lhs1_1 _ _).trans hk)
  have er : dot_S10000x128_S128x128_S10000x128_1_0_0_1_n_n.rhsIdx (ix2 r l) ((contrEquiv1 dot_S10000x128_S128x128_S10000x128_1_0_0_1_n_n 128 rfl rfl).symm k) = ix2 k l := funext fun a => Fin.ext (by
    match a with
    | ⟨0, _⟩ => exact (rhs1_0 _ _).trans hk
    | ⟨1, _⟩ => exact rhs1_1 _ _)
  rw [el, er]; rfl

theorem lhs2_0 (i : S512x128.Idx) (q : dot_S512x10000_S10000x128_S512x128_1_0_0_1_n_n.contr.Idx) : (dot_S512x10000_S10000x128_S512x128_1_0_0_1_n_n.lhsIdx i q 0).val = (i 0).val := by
  unfold DotDims.lhsIdx
  rw [dif_neg (show ¬(0 : Fin S512x10000.rank) ∈ dot_S512x10000_S10000x128_S512x128_1_0_0_1_n_n.lhsBatch by decide), dif_pos (show (0 : Fin S512x10000.rank) ∈ dot_S512x10000_S10000x128_S512x128_1_0_0_1_n_n.lhsNonContracting by decide)]
  rfl
theorem lhs2_1 (i : S512x128.Idx) (q : dot_S512x10000_S10000x128_S512x128_1_0_0_1_n_n.contr.Idx) : (dot_S512x10000_S10000x128_S512x128_1_0_0_1_n_n.lhsIdx i q 1).val = (q ⟨0, by decide⟩).val :=
  dot_S512x10000_S10000x128_S512x128_1_0_0_1_n_n.lhsIdx_val_of_single rfl i q
theorem rhs2_0 (i : S512x128.Idx) (q : dot_S512x10000_S10000x128_S512x128_1_0_0_1_n_n.contr.Idx) : (dot_S512x10000_S10000x128_S512x128_1_0_0_1_n_n.rhsIdx i q 0).val = (q ⟨0, by decide⟩).val :=
  dot_S512x10000_S10000x128_S512x128_1_0_0_1_n_n.rhsIdx_val_of_single rfl i q
theorem rhs2_1 (i : S512x128.Idx) (q : dot_S512x10000_S10000x128_S512x128_1_0_0_1_n_n.contr.Idx) : (dot_S512x10000_S10000x128_S512x128_1_0_0_1_n_n.rhsIdx i q 1).val = (i 1).val := by
  unfold DotDims.rhsIdx
  rw [dif_neg (show ¬(1 : Fin S10000x128.rank) ∈ dot_S512x10000_S10000x128_S512x128_1_0_0_1_n_n.rhsBatch by decide), dif_pos (show (1 : Fin S10000x128.rank) ∈ dot_S512x10000_S10000x128_S512x128_1_0_0_1_n_n.rhsNonContracting by decide)]
  rfl

/-- The output block at an index: row `r` of the adjacency block against column `l` of the support matrix. -/
theorem pay2_apply (x3 : Vec Ideal S512x10000 .f32) (xs : Vec Ideal S10000x128 .bf16) (r : Fin 512) (l : Fin 128) :
    k0_pay2 (F := Ideal) x3 xs (ix2 r l) = ∑ k : Fin 10000, x3 (ix2 r k) * xs (ix2 k l) := by
  unfold k0_pay2
  refine (Ideal.matmul_constant_zero_apply (φ₁ := .bf16) (φ₂ := .bf16) dot_S512x10000_S10000x128_S512x128_1_0_0_1_n_n none _ _ (ix2 r l)).trans ?_
  rw [← Equiv.sum_comp (contrEquiv1 dot_S512x10000_S10000x128_S512x128_1_0_0_1_n_n 10000 rfl rfl).symm]
  refine Finset.sum_congr rfl fun k _ => ?_
  have hk := contrEquiv1_symm_val dot_S512x10000_S10000x128_S512x128_1_0_0_1_n_n 10000 rfl rfl k
  have el : dot_S512x10000_S10000x128_S512x128_1_0_0_1_n_n.lhsIdx (ix2 r l) ((contrEquiv1 dot_S512x10000_S10000x128_S512x128_1_0_0_1_n_n 10000 rfl rfl).symm k) = ix2 r k := funext fun a => Fin.ext (by
    match a with
    | ⟨0, _⟩ => exact lhs2_0 _ _
    | ⟨1, _⟩ => exact (lhs2_1 _ _).trans hk)
  have er : dot_S512x10000_S10000x128_S512x128_1_0_0_1_n_n.rhsIdx (ix2 r l) ((contrEquiv1 dot_S512x10000_S10000x128_S512x128_1_0_0_1_n_n 10000 rfl rfl).symm k) = ix2 k l := funext fun a => Fin.ext (by
    match a with
    | ⟨0, _⟩ => exact (rhs2_0 _ _).trans hk
    | ⟨1, _⟩ => exact rhs2_1 _ _)
  rw [el, er]; rfl

/-! ## The rows a point writes back -/

variable (m : (ℓ : Loc nD τ sig) → Buf (Elt Ideal) ℓ) (ρ : Dev nD → PrngReg)

/-- The adjacency window's block `t` starts at row 512 t, spans every column, and has as many rows inside the
    array as the output's block `t`; the output's block spans every column too. -/
theorem adj_block : ∀ t : Fin cfg0.N, win0_2.xsize (grid0.coords t) 0 = win0_3.xsize (grid0.coords t) 0
      ∧ win0_2.xsize (grid0.coords t) 1 = 10000 ∧ win0_2.index t 0 = t.val ∧ win0_2.index t 1 = 0 :=
  (by decide +kernel : ∀ t : Fin grid0.N, win0_2.xsize (grid0.coords t) 0 = win0_3.xsize (grid0.coords t) 0
      ∧ win0_2.xsize (grid0.coords t) 1 = 10000 ∧ win0_2.index t 0 = t.val ∧ win0_2.index t 1 = 0)
theorem out_cols : ∀ t : Fin cfg0.N, win0_3.index t 1 = 0 ∧ win0_3.xsize (grid0.coords t) 1 = 128 :=
  (by decide +kernel : ∀ t : Fin grid0.N, win0_3.index t 1 = 0 ∧ win0_3.xsize (grid0.coords t) 1 = 128)

/-- Row `r` of the adjacency staging buffer after the fetch at point `t`, for a row the fetch moves, is row
    512 t + r of the adjacency matrix, whatever the buffer held before. -/
theorem adj_row (c : Dev nD) (t : Fin cfg0.N) (d : S512x10000.Idx → Elt Ideal .f32) (r : Fin 512) (k : Fin 10000)
    (hr : r.val < win0_3.xsize (grid0.coords t) 0) (R : Fin 10000) (hR : R.val = t.val * 512 + r.val) :
    win0_2.fill (grid0.coords t) d (iblk m c 2 t) (ix2 r k) = V m c main_arg1 (ix2 R k) := by
  have hm : win0_2.moved (grid0.coords t) (ix2 r k) = true := (win0_2.moved_iff _ _).mpr fun a => by
    match a with
    | ⟨0, _⟩ => show r.val < win0_2.xsize (grid0.coords t) 0; rw [(adj_block t).1]; exact hr
    | ⟨1, _⟩ => show k.val < win0_2.xsize (grid0.coords t) 1; rw [(adj_block t).2.1]; exact k.isLt
  unfold Window.fill
  rw [dif_pos hm]
  unfold iblk
  rw [View.read_apply]
  show V m c main_arg1 (((cfg0.win 2).blk t).view.emb _) = V m c main_arg1 (ix2 R k)
  refine congrArg (V m c main_arg1) (funext fun a => Fin.ext ?_)
  match a with
  | ⟨0, _⟩ =>
    show win0_2.index t 0 * win0_2.size 0 + 1 * r.val = R.val
    rw [(adj_block t).2.2.1, hR]; show t.val * 512 + 1 * r.val = _; omega
  | ⟨1, _⟩ =>
    show win0_2.index t 1 * win0_2.size 1 + 1 * k.val = k.val
    rw [(adj_block t).2.2.2]; omega

/-- The function the output array ends at, of the argument arrays as the region finds them. -/
def Gout (c : Dev nD) : Buf (Elt Ideal) ((cfg0.win 3).arr.view.loc (c.tc : Thread nD τ)) :=
  G (feat m c) (V m c main_arg1) (wgt m c)

/-- On the rows the write-back at point `t` moves, the body's product is `G` read through the output's block:
    row r of the product is row 512 t + r of the adjacency matrix against the support matrix, column by column. -/
theorem body_rows (c : Dev nD) (t : Fin cfg0.N) (d : S512x10000.Idx → Elt Ideal .f32) :
    win0_3.cut (grid0.coords t) (k0_pay2 (F := Ideal) (win0_2.fill (grid0.coords t) d (iblk m c 2 t)) (supp m c))
      = (win0_3.blk t).view.read (Elt Ideal) (Gout m c) := by
  funext j
  have hj0 : (j 0).val < win0_3.xsize (grid0.coords t) 0 := (j 0).isLt
  have hj1 : (j 1).val < 128 := by have h := (j 1).isLt; rw [← (out_cols t).2]; exact h
  have hlt0 : (j 0).val < 512 := lt_of_lt_of_le hj0 (win0_3.xsize_le _ 0)
  have hrow : t.val * 512 + (j 0).val < 10000 := by
    have h := (rows3 t).2; have hN : t.val < 20 := t.isLt
    rw [h] at hj0; split at hj0 <;> omega
  rw [View.read_apply]
  show k0_pay2 (F := Ideal) _ _ (win0_3.xinj (grid0.coords t) j) = Gout m c ((win0_3.blk t).view.emb j)
  have hxi : win0_3.xinj (grid0.coords t) j = ix2 (⟨(j 0).val, hlt0⟩ : Fin 512) (⟨(j 1).val, hj1⟩ : Fin 128) :=
    funext fun a => Fin.ext (by match a with | ⟨0, _⟩ => rfl | ⟨1, _⟩ => rfl)
  have hemb : (win0_3.blk t).view.emb j = ix2 (⟨t.val * 512 + (j 0).val, hrow⟩ : Fin 10000) (⟨(j 1).val, hj1⟩ : Fin 128) :=
    funext fun a => Fin.ext (by
      match a with
      | ⟨0, _⟩ =>
        show win0_3.index t 0 * win0_3.size 0 + 1 * (j 0).val = t.val * 512 + (j 0).val
        rw [(rows3 t).1]; show t.val * 512 + 1 * (j 0).val = _; omega
      | ⟨1, _⟩ =>
        show win0_3.index t 1 * win0_3.size 1 + 1 * (j 1).val = (j 1).val
        rw [(out_cols t).1]; omega)
  rw [hxi, hemb, pay2_apply]
  unfold Gout G
  refine Finset.sum_congr rfl fun k _ => ?_
  rw [adj_row m c t d _ k hj0 ⟨_, hrow⟩ rfl]
  unfold supp
  rw [pay1_apply]

/-- THE KERNEL'S RUN with its result named: every weakly fair execution terminates, the result array holds `G` of
    the argument arrays, and the argument arrays are unchanged. -/
theorem run : θ_run defs (onTc (τ := τ) (main (F := Ideal))) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final_out m (Gout m) c),
      ((h c).1 0).trans (((dats m (Gout m) 0 c).arrAt_in 0 rfl _).trans ((A_eq m (Gout m) c 0).trans (V_main_arg0 m c))),
      ((h c).1 2).trans (((dats m (Gout m) 0 c).arrAt_in 2 rfl _).trans ((A_eq m (Gout m) c 2).trans (V_main_arg1 m c))),
      ((h c).1 1).trans (((dats m (Gout m) 0 c).arrAt_in 1 rfl _).trans ((A_eq m (Gout m) c 1).trans (V_main_arg2 m c)))⟩)
    (run_main m ρ (Gout m) (body_rows m))

end Cert.KernelIdeal.IdealValue

end
-- ==== Proof.RefI.lean ====
/-
  The reference computes the same function.

  The reference is two matrix products on the host, adjacency times (features times weights), in that association.
  Over the extended reals each product read at an index is the plain sum over the contracted axis, so the reference's
  result at (i, l) is  sum_k adjacency[i, k] * ( sum_j features[k, j] * weights[j, l] ):  term for term the function
  the kernel's output array ends at. The two sides group their sums the same way, so no law of the extended reals
  beyond reading each product as its sum is used, and the inputs' finiteness is never needed.
-/
import proofs.«123786_g16252156248657_cont_week2b_908_7_alg».proof.Proof.ValueI
import proofs.«123786_g16252156248657_cont_week2b_908_7_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The reference's composed term, at the ideal instance, is `G` of its three arguments. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = Cert.KernelIdeal.IdealValue.G x0 x1 x2 := by
  funext i
  rw [val_main_v1_apply]
  unfold Cert.KernelIdeal.IdealValue.G
  refine Finset.sum_congr rfl fun k _ => ?_
  rw [val_main_v0_apply]
  have e1 : lidx_main_v1 i k = ix2 ⟨(i 0).val, (i 0).isLt⟩ k :=
    funext fun a => Fin.ext (by match a with | ⟨0, _⟩ => rfl | ⟨1, _⟩ => rfl)
  have e2 : ∀ j : Fin 128, lidx_main_v0 (ridx_main_v1 i k) j = ix2 k j := fun j =>
    funext fun a => Fin.ext (by match a with | ⟨0, _⟩ => rfl | ⟨1, _⟩ => rfl)
  have e3 : ∀ j : Fin 128, ridx_main_v0 (ridx_main_v1 i k) j = ix2 j ⟨(i 1).val, (i 1).isLt⟩ := fun j =>
    funext fun a => Fin.ext (by match a with | ⟨0, _⟩ => rfl | ⟨1, _⟩ => rfl)
  rw [e1]
  simp only [e2, e3]
  rfl

end Cert.ReferenceIdeal.RefValue

end
-- ==== Proof.lean ====
/-
  A graph-convolution layer, out = adjacency * (features * weights), as one pipelined kernel against two host
  matrix products.

  The kernel walks the adjacency matrix in twenty blocks of 512 rows. At the first block it multiplies the whole
  feature matrix by the whole weight matrix and keeps the product (the support matrix) in a scratch buffer; at every
  block it multiplies the block's rows of the adjacency matrix by the support matrix and writes the 512 resulting rows
  of the output. The last block reaches 240 rows past the end of the arrays: those rows of the staging buffers hold
  nothing in particular, the rows of the product computed from them are never written back, and every output row
  0 .. 9999 is written by exactly the block that contains it. Over the extended reals the output is therefore

      out[i, l] = sum_k adjacency[i, k] * ( sum_j features[k, j] * weights[j, l] )

  which is what the reference's two products compute, in the same association. The frames say that each program
  runs to the end without a fault and leaves its three argument arrays as they were: the kernel only ever reads them.
  The ideal pass rewrote nothing, so there is nothing to preserve beyond the program's own text.
-/
import proofs.«123786_g16252156248657_cont_week2b_908_7_alg».proof.Defs
import proofs.«123786_g16252156248657_cont_week2b_908_7_alg».proof.Proof.Gen.Kernel
import proofs.«123786_g16252156248657_cont_week2b_908_7_alg».proof.Proof.Gen.KernelIdeal
import proofs.«123786_g16252156248657_cont_week2b_908_7_alg».proof.Proof.Gen.ReferenceIdeal
import proofs.«123786_g16252156248657_cont_week2b_908_7_alg».proof.Proof.Gen.Pre_finite_inputs
import proofs.«123786_g16252156248657_cont_week2b_908_7_alg».proof.Proof.Gen.ReferenceIdeal.Run
import proofs.«123786_g16252156248657_cont_week2b_908_7_alg».proof.Proof.OblK
import proofs.«123786_g16252156248657_cont_week2b_908_7_alg».proof.Proof.ValueI
import proofs.«123786_g16252156248657_cont_week2b_908_7_alg».proof.Proof.RefI
import Idealize.ShloMosaic.Adequacy
import Idealize.ShloMosaic.Init

noncomputable section

namespace Cert.Proof

open Idealize.ShloMosaic Idealize.SL.Sem

/-- The kernel as printed: it runs, and its arguments end unchanged. -/
theorem frame_k : Cert.frame_Kernel := fun m ρ _ => Cert.Kernel.Body.frame (F := Bits) m ρ

/-- The idealized kernel: the same, read off its run with the result named. -/
theorem frame_ki : Cert.frame_KernelIdeal := fun m ρ _ =>
  (θ_run Cert.KernelIdeal.defs _ _).mono (fun _ h c => (h c).2) (Cert.KernelIdeal.IdealValue.run m ρ)

/-- The reference: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the result array at `G` of the arguments. -/
theorem algebraic : Cert.algebraic_KernelIdeal_ReferenceIdeal := by
  intro m ρ m' ρ' _ hagree
  refine ⟨fun c => Cert.KernelIdeal.IdealValue.Gout m c, Cert.KernelIdeal.IdealValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v1_eq]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
